-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x2048 .f32) (main_arg1 : FVec F S16384x2048 .f32) (main_arg2 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x2048 : Shape := ⟨2, ![16384, 2048]⟩
abbrev S2048 : Shape := ⟨1, ![2048]⟩
abbrev S1x2048 : Shape := ⟨2, ![1, 2048]⟩
abbrev S16x128 : Shape := ⟨2, ![16, 128]⟩
abbrev S512x2048 : Shape := ⟨2, ![512, 2048]⟩
abbrev S8x128 : Shape := ⟨2, ![8, 128]⟩
abbrev S1x1 : Shape := ⟨2, ![1, 1]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S1x2048, .f32⟩
  | .hbm, ⟨4, _⟩ => ⟨S16x128, .f32⟩
  | .hbm, ⟨5, _⟩ => ⟨S_, .f32⟩
  | .hbm, ⟨6, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S8x128, .f32⟩
  | .local _ .vmem, ⟨6, _⟩ => ⟨S8x128, .f32⟩
  | .local _ .vmem, ⟨7, _⟩ => ⟨S1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_14 : BitVec 32 := 0#32
  let v31 : BitVec 1 := Scalar.cmpi .ne v30 c0_i32_14
  v31

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2048_S1x2048 : S2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  natLt_1_32 : 1 < 32
  broadcasts_S1x2048_S512x2048 : S1x2048.Broadcasts S512x2048
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  iota_S8x128_d0_w32 : S8x128.Iotas .tc 32 [0]
  iota_S8x128_d1_w32 : S8x128.Iotas .tc 32 [1]
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x2048 : Shape := ⟨2, ![16384, 2048]⟩
abbrev S2048 : Shape := ⟨1, ![2048]⟩
abbrev S_ : Shape := ⟨0, ![]⟩
abbrev S1x2048 : Shape := ⟨2, ![1, 2048]⟩
abbrev S16384 : Shape := ⟨1, ![16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S16384x2048, .i1⟩
  | .hbm, ⟨4, _⟩ => ⟨S16384x2048, .i1⟩
  | .hbm, ⟨5, _⟩ => ⟨S16384x2048, .f32⟩
  | .hbm, ⟨6, _⟩ => ⟨S_, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S16384_d1 : S16384x2048.ReducesTo [1] S16384
  h_S_ : 0 < S_.numel
  reducesTo_S16384_S_d0 : S16384.ReducesTo [0] S_

variable [Facts₀]

class Facts : Prop extends Facts₀ where

variable [Facts]
-- ==== Proof.Spec.lean ====
/-
  The specification: the mean-square loss both programs compute, as one extended real, and the arithmetic
  of how the kernel's grid assembles it.

  For row r the weighted residuals (t − o) · w are squared and summed over the 2048 features, and the sum is
  divided by the number of features counted (every feature counts: on the extended reals nothing is unordered,
  so the "is a number" mask is all ones and the count is the sum of 2048 ones); the rows' quotients are summed
  over the 16384 rows (`total`).

  The kernel walks the rows in 32 tiles of 512 rows (`tile`, `sum_rows_eq_tiles`: the rows are the pairs
  (tile, row in the tile)). Each of two cores keeps a running sum of its sixteen tiles' sums, restarted at the
  core's first tile (`runSum`: the sum of the tiles from the start of the current group of sixteen up to the
  current one; `runSum_first`, `runSum_step`), and `runSum_total`: the two cores' last running sums add up to the sum
  over all 32 tiles. Each core writes its last running sum into one entry of a [16, 128] array that is zero elsewhere
  (`outArr`), and the whole array is summed (`sum_outArr`). Only commutativity and associativity of the extended reals'
  addition are used, so no finiteness is needed.
-/
import Idealize.ShloMosaic.PureOps.Ideal
import Idealize.ShloMosaic.Lib.ValueIdx

noncomputable section

namespace Cert.Spec

open Idealize.ShloMosaic Idealize.ShloMosaic.ValueIdx
open scoped BigOperators

/-! ## The loss -/

/-- The two [16384, 2048] arguments' shape, the weights' shape, a tile's shape, the weights as one row, the result array. -/
abbrev Arr : Shape := ⟨2, ![16384, 2048]⟩
abbrev Wts : Shape := ⟨1, ![2048]⟩
abbrev Blk : Shape := ⟨2, ![512, 2048]⟩
abbrev WRow : Shape := ⟨2, ![1, 2048]⟩
abbrev Out : Shape := ⟨2, ![16, 128]⟩

/-- Row `r`'s quotient: the sum over the features of the squared weighted residual, over the number of features. -/
def rowQ (o t : Arr.Idx → EReal) (w : Wts.Idx → EReal) (r : Fin 16384) : EReal :=
  Ideal.div (∑ j : Fin 2048, ((t (ix2 r j) - o (ix2 r j)) * w (ix1 j)) * ((t (ix2 r j) - o (ix2 r j)) * w (ix1 j)))
    (∑ _j : Fin 2048, (1 : EReal))

/-- The loss: the rows' quotients summed. -/
def total (o t : Arr.Idx → EReal) (w : Wts.Idx → EReal) : EReal := ∑ r : Fin 16384, rowQ o t w r

/-! ## The rows in 32 tiles of 512 -/

/-- Row `r` of tile `n` is row `512 n + r` of the array. -/
def tileRow (n : Fin 32) (r : Fin 512) : Fin 16384 := ⟨512 * n.val + r.val, by have := n.isLt; have := r.isLt; omega⟩

/-- The rows are the pairs (tile, row in the tile). -/
def rowEquiv : Fin 32 × Fin 512 ≃ Fin 16384 := finProdFinEquiv.trans (finCongr (by norm_num))

theorem rowEquiv_val (n : Fin 32) (r : Fin 512) : (rowEquiv (n, r)).val = 512 * n.val + r.val := by
  show r.val + 512 * n.val = 512 * n.val + r.val
  omega

/-- A sum over the rows is the sum over the tiles of the sums over each tile's rows. -/
theorem sum_rows_eq_tiles {M : Type*} [AddCommMonoid M] (f : Fin 16384 → M) :
    ∑ R, f R = ∑ n : Fin 32, ∑ r : Fin 512, f (tileRow n r) := by
  rw [← Equiv.sum_comp rowEquiv f, Fintype.sum_prod_type]
  exact Finset.sum_congr rfl fun n _ => Finset.sum_congr rfl fun r _ => congrArg f (Fin.ext (rowEquiv_val n r))

/-- Tile `n`'s sum of row quotients. -/
def tile (o t : Arr.Idx → EReal) (w : Wts.Idx → EReal) (n : Fin 32) : EReal := ∑ r : Fin 512, rowQ o t w (tileRow n r)

/-- The same with the tile numbered by a natural number (zero past the last tile). -/
def tileN (o t : Arr.Idx → EReal) (w : Wts.Idx → EReal) (n : ℕ) : EReal := if h : n < 32 then tile o t w ⟨n, h⟩ else 0

theorem tileN_of_lt (o t : Arr.Idx → EReal) (w : Wts.Idx → EReal) (n : ℕ) (h : n < 32) : tileN o t w n = tile o t w ⟨n, h⟩ :=
  dif_pos h

theorem total_eq_tiles (o t : Arr.Idx → EReal) (w : Wts.Idx → EReal) : total o t w = ∑ n : Fin 32, tile o t w n :=
  sum_rows_eq_tiles _

/-- A tile's sum from its blocks: when the three blocks a grid point is handed hold tile `n`'s rows of the two arrays
    and the weights as one row, the block-level expression is the tile's sum. -/
def blockSum (x0 x1 : Blk.Idx → EReal) (x2 : WRow.Idx → EReal) : EReal :=
  ∑ r : Fin 512, Ideal.div
    (∑ j : Fin 2048, ((x1 (ix2 r j) - x0 (ix2 r j)) * x2 (ix2 (0 : Fin 1) j)) * ((x1 (ix2 r j) - x0 (ix2 r j)) * x2 (ix2 (0 : Fin 1) j)))
    (∑ _j : Fin 2048, (1 : EReal))

theorem blockSum_eq_tile (o t : Arr.Idx → EReal) (w : Wts.Idx → EReal) (n : Fin 32)
    (x0 x1 : Blk.Idx → EReal) (x2 : WRow.Idx → EReal)
    (h0 : ∀ (r : Fin 512) (j : Fin 2048), x0 (ix2 r j) = o (ix2 (tileRow n r) j))
    (h1 : ∀ (r : Fin 512) (j : Fin 2048), x1 (ix2 r j) = t (ix2 (tileRow n r) j))
    (h2 : ∀ j : Fin 2048, x2 (ix2 (0 : Fin 1) j) = w (ix1 j)) :
    blockSum x0 x1 x2 = tile o t w n := by
  unfold blockSum tile rowQ
  refine Finset.sum_congr rfl fun r _ => ?_
  refine congrArg (fun s => Ideal.div s _) (Finset.sum_congr rfl fun j _ => ?_)
  rw [h0, h1, h2]

/-! ## The running sum a core keeps -/

section Running
variable {M : Type*} [AddCommMonoid M]

/-- After grid point `n` a core's accumulator holds the sum of the tiles from the start of the current group of
    sixteen points through `n`. -/
def runSum (f : ℕ → M) (n : ℕ) : M := ∑ k ∈ Finset.Ico (16 * (n / 16)) (n + 1), f k

/-- At the first point of a group the running sum is that point's tile alone. -/
theorem runSum_first (f : ℕ → M) (n : ℕ) (h : n % 16 = 0) : runSum f n = f n := by
  unfold runSum
  have e : 16 * (n / 16) = n := by omega
  rw [e, Nat.Ico_succ_singleton, Finset.sum_singleton]

/-- At any other point it is the previous running sum plus the point's tile. -/
theorem runSum_step (f : ℕ → M) (n : ℕ) (h : ¬(n + 1) % 16 = 0) : runSum f (n + 1) = runSum f n + f (n + 1) := by
  unfold runSum
  have e : 16 * ((n + 1) / 16) = 16 * (n / 16) := by omega
  rw [e, Finset.sum_Ico_succ_top (by omega)]

/-- The two groups' last running sums are, together, the sum over all 32 points. -/
theorem runSum_total (f : ℕ → M) : runSum f 15 + runSum f 31 = ∑ k ∈ Finset.range 32, f k := by
  unfold runSum
  rw [show 16 * (15 / 16) = 0 from rfl, show 16 * (31 / 16) = 16 from rfl, show 15 + 1 = 16 from rfl,
    show 31 + 1 = 32 from rfl, Finset.sum_Ico_consecutive f (by norm_num) (by norm_num), Finset.range_eq_Ico]

end Running

/-- So the two cores' last running sums of the tiles add up to the loss. -/
theorem runSum_tiles_eq_total (o t : Arr.Idx → EReal) (w : Wts.Idx → EReal) :
    runSum (tileN o t w) 15 + runSum (tileN o t w) 31 = total o t w := by
  rw [runSum_total, total_eq_tiles, Finset.sum_range]
  exact Finset.sum_congr rfl fun n _ => tileN_of_lt o t w n.val n.isLt

/-! ## The result array: two entries and zeros -/

theorem ix2_eq_iff {n0 n1 : Nat} (a a' : Fin n0) (b b' : Fin n1) : ix2 a b = ix2 a' b' ↔ a = a' ∧ b = b' :=
  ⟨fun h => ⟨congrFun h 0, congrFun h 1⟩, fun h => by rw [h.1, h.2]⟩

open Classical in
/-- The [16, 128] array the kernel leaves: core 0's sum at (0, 0), core 1's at (8, 0), zero elsewhere. -/
def outArr (a0 a1 : EReal) : Out.Idx → EReal := fun y =>
  (if y = ix2 (0 : Fin 16) (0 : Fin 128) then a0 else 0) + (if y = ix2 (8 : Fin 16) (0 : Fin 128) then a1 else 0)

/-- Its entries sum to the two cores' sums. -/
theorem sum_outArr (a0 a1 : EReal) : ∑ y : Out.Idx, outArr a0 a1 y = a0 + a1 := by
  unfold outArr
  rw [Finset.sum_add_distrib, Finset.sum_ite_eq', Finset.sum_ite_eq', if_pos (Finset.mem_univ _), if_pos (Finset.mem_univ _)]

/-- Rows 0–7 of it: core 0's sum at the block's corner, zero elsewhere. -/
theorem outArr_block0 (a0 a1 : EReal) (p : Fin 8) (q : Fin 128) (P : Fin 16) (hP : P.val = p.val) :
    outArr a0 a1 (ix2 P q) = if p.val = 0 ∧ q.val = 0 then a0 else 0 := by
  unfold outArr
  have h8 : ¬ix2 P q = ix2 (8 : Fin 16) (0 : Fin 128) := fun h => by
    have := congrArg Fin.val ((ix2_eq_iff _ _ _ _).mp h).1
    have h8' : ((8 : Fin 16) : ℕ) = 8 := rfl
    have := p.isLt
    omega
  rw [if_neg h8, add_zero]
  by_cases hc : p.val = 0 ∧ q.val = 0
  · rw [if_pos hc, if_pos ((ix2_eq_iff _ _ _ _).mpr ⟨Fin.ext (by rw [hP, hc.1]; rfl), Fin.ext (by rw [hc.2]; rfl)⟩)]
  · rw [if_neg hc, if_neg fun h => hc ⟨by have := congrArg Fin.val ((ix2_eq_iff _ _ _ _).mp h).1; have h0 : ((0 : Fin 16) : ℕ) = 0 := rfl; omega,
      by have := congrArg Fin.val ((ix2_eq_iff _ _ _ _).mp h).2; have h0 : ((0 : Fin 128) : ℕ) = 0 := rfl; omega⟩]

/-- Rows 8–15 of it: core 1's sum at the block's corner, zero elsewhere. -/
theorem outArr_block1 (a0 a1 : EReal) (p : Fin 8) (q : Fin 128) (P : Fin 16) (hP : P.val = 8 + p.val) :
    outArr a0 a1 (ix2 P q) = if p.val = 0 ∧ q.val = 0 then a1 else 0 := by
  unfold outArr
  have h0 : ¬ix2 P q = ix2 (0 : Fin 16) (0 : Fin 128) := fun h => by
    have := congrArg Fin.val ((ix2_eq_iff _ _ _ _).mp h).1
    have h0' : ((0 : Fin 16) : ℕ) = 0 := rfl
    omega
  rw [if_neg h0, zero_add]
  by_cases hc : p.val = 0 ∧ q.val = 0
  · rw [if_pos hc, if_pos ((ix2_eq_iff _ _ _ _).mpr ⟨Fin.ext (by rw [hP, hc.1]; rfl), Fin.ext (by rw [hc.2]; rfl)⟩)]
  · rw [if_neg hc, if_neg fun h => hc ⟨by have := congrArg Fin.val ((ix2_eq_iff _ _ _ _).mp h).1; have h8 : ((8 : Fin 16) : ℕ) = 8 := rfl; omega,
      by have := congrArg Fin.val ((ix2_eq_iff _ _ _ _).mp h).2; have h0' : ((0 : Fin 128) : ℕ) = 0 := rfl; omega⟩]

end Cert.Spec

end
-- ==== Proof.LibIdx.lean ====
/-
  Sums over a rank-1 index set by its one coordinate, and the column forms of a shape cast that a sum with
  `keepdims` meets: a vector [a] viewed as a column [a, 1], and a one-element vector [1] viewed as [1, 1].
-/
import Idealize.ShloMosaic.Lib.Pipeline.Value
import Idealize.ShloMosaic.Lib.ValueIdx

noncomputable section

namespace Cert.LibIdx

open Idealize.ShloMosaic Idealize.ShloMosaic.ValueIdx
open scoped BigOperators

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An `[a]` vector cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Every index of a [1, 1] array is (0, 0). -/
theorem idx11_eq (y : (⟨2, ![1, 1]⟩ : Shape).Idx) : y = ix2 (0 : Fin 1) (0 : Fin 1) := by
  funext a
  match a with
  | ⟨0, _⟩ => exact Subsingleton.elim (α := Fin 1) _ _
  | ⟨1, _⟩ => exact Subsingleton.elim (α := Fin 1) _ _

end Cert.LibIdx

end
-- ==== Proof.RefValue.lean ====
/-
  The reference computes the specification. Read one operation at a time at an index: its "is a number" mask compares
  each target with itself for inequality, which on the extended reals is never true, so the negated mask is all ones, the
  selected target is the target, the mask as a float is one and multiplying by it changes nothing; the feature weights
  are broadcast along the rows; the two host sums along the features start from zero; their quotient is the row's quotient;
  and the last host sum runs over the rows. So the result is the loss `Cert.Spec.total` of the three arguments.
-/
import proofs.«118685_j47339129536786_2_alg».proof.Proof.Gen.ReferenceIdeal.Read
import proofs.«118685_j47339129536786_2_alg».proof.Proof.Spec
import proofs.«118685_j47339129536786_2_alg».proof.Proof.LibIdx
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.Spec
open scoped BigOperators

/-- Nothing differs from itself: the negated mask is one at every index. -/
theorem mask_apply (t : Arr.Idx → EReal) (i : Arr.Idx) : val_main_v1 (F := Ideal) t i = 1#1 := by
  rw [val_main_v1_apply, val_main_v0_apply, Ideal.cmpf_def]
  simp [Ideal.cmp]

/-- The mask as a float is one. -/
theorem maskf_apply (t : Arr.Idx → EReal) (i : Arr.Idx) : val_main_v2 (F := Ideal) t i = 1 := by
  rw [val_main_v2_apply, mask_apply]
  show (((1#1 : BitVec 1).toNat : ℝ) : EReal) = 1
  simp

/-- The squared weighted residual at row `r`, feature `j`. -/
theorem sq_apply (o t : Arr.Idx → EReal) (w : Wts.Idx → EReal) (r : Fin 16384) (j : Fin 2048) :
    val_main_v9 (F := Ideal) o t w (ix2 r j)
      = ((t (ix2 r j) - o (ix2 r j)) * w (ix1 j)) * ((t (ix2 r j) - o (ix2 r j)) * w (ix1 j)) := by
  have e : idx_main_v6 (idx_main_v7 (ix2 r j)) = ix1 j := funext fun a => Fin.ext (by match a with | ⟨0, _⟩ => rfl)
  rw [val_main_v9_apply, val_main_v8_apply, val_main_v5_apply, val_main_v4_apply, val_main_v3_apply, mask_apply,
    maskf_apply, val_main_v7_apply, val_main_v6_apply, e, select_one]
  simp only [Ideal.mulf_def, Ideal.subf_def, mul_one]

/-- The host's zero constants are zero. -/
theorem cst_zero (i : S_.Idx) : (constant (F := Ideal) S_ .f32 0x00000000#32) i = 0 := Ideal.ofBits_zero_f32

/-- Row `r`'s quotient. -/
theorem row_apply (o t : Arr.Idx → EReal) (w : Wts.Idx → EReal) (r : Fin 16384) :
    val_main_v12 (F := Ideal) o t w (ix1 r) = rowQ o t w r := by
  have e10 : ∀ k : Fin 2048, idx_main_v10 (ix1 r) k = ix2 r k := fun k =>
    funext fun a => Fin.ext (by match a with | ⟨0, _⟩ => rfl | ⟨1, _⟩ => rfl)
  have e11 : ∀ k : Fin 2048, idx_main_v11 (ix1 r) k = ix2 r k := fun k =>
    funext fun a => Fin.ext (by match a with | ⟨0, _⟩ => rfl | ⟨1, _⟩ => rfl)
  rw [val_main_v12_apply, val_main_v10_apply, val_main_v11_apply]
  unfold val_main_cst_0 val_main_cst_1 rowQ
  rw [cst_zero, zero_add, zero_add, Ideal.hostDivf_def]
  refine congrArg₂ Ideal.div (Finset.sum_congr rfl fun k _ => ?_) (Finset.sum_congr rfl fun k _ => ?_)
  · rw [e10, sq_apply]
  · rw [e11, maskf_apply]

/-- The reference's result is the loss. -/
theorem result_eq (o t : Arr.Idx → EReal) (w : Wts.Idx → EReal) :
    val_main_v13 (F := Ideal) o t w = fun _ => total o t w := by
  funext i
  rw [val_main_v13_apply]
  unfold val_main_cst_2 total
  rw [cst_zero, zero_add, Cert.LibIdx.sum_idx1]
  exact Finset.sum_congr rfl fun r _ => row_apply o t w r

end Cert.ReferenceIdeal.RefValue

end
-- ==== Proof.Pieces.lean ====
/-
  What each control case of the kernel body leaves behind, as values of the body's pure terms, for any float values.
  The body's conditionals distinguish three cases of a grid point: the first point of a group of sixteen (the
  accumulator is zeroed, then the tile's sum is added), a middle point (the tile's sum is added to what the point
  before left), and the last point of a group (the same, and the accumulator is then written into the result block).
  In each case the accumulator cell and, in the last, the result block are covered by one store, so what they hold afterwards
  is that store's value; the loads feeding it read the whole input blocks, and a load of the cell after a store into it reads
  what was stored.
-/
import proofs.«118685_j47339129536786_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The zero offsets every load and store of the body uses. -/
theorem hz : (![0, 0] : Fin 2 → Nat) = fun _ => 0 := funext fun a => by fin_cases a <;> rfl

/-- A middle point leaves in the accumulator the update of what it found there. -/
theorem sout_B (c : Dev nD) (i : grid0.Coords) (a2 : Memref sig .tc .vmem S512x2048 .f32) (h2 : a2.IsWhole)
    (a3 : Memref sig .tc .vmem S512x2048 .f32) (h3 : a3.IsWhole) (a4 : Memref sig .tc .vmem S1x2048 .f32) (h4 : a4.IsWhole)
    (a5 : Memref sig .tc .vmem S8x128 .f32) (h5 : a5.IsWhole) (a6 : Memref sig .tc .vmem S1x1 .f32) (h6 : a6.IsWhole)
    (hc0 : ¬cond0_0 i) (hc1 : ¬cond0_1 i) (x0 x1 : Vec F S512x2048 .f32) (x2 : Vec F S1x2048 .f32) (xs0 : Vec F S1x1 .f32) :
    sout0_B_0 c i a2 h2 a3 h3 a4 h4 a5 h5 a6 h6 hc0 hc1 x0 x1 x2 xs0 = k0_pay2 x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz]
  simp only [View.readAt_eq_ld, h2.read_unread, h3.read_unread, h4.read_unread, h6.read_unread,
    View.ld_unit_zero (S := S512x2048) hz, View.ld_unit_zero (S := S1x2048) hz, View.ld_unit_zero (S := S1x1) hz]

/-- A group's first point leaves in the accumulator the update of the zero it has just stored. -/
theorem sout_A (c : Dev nD) (i : grid0.Coords) (a2 : Memref sig .tc .vmem S512x2048 .f32) (h2 : a2.IsWhole)
    (a3 : Memref sig .tc .vmem S512x2048 .f32) (h3 : a3.IsWhole) (a4 : Memref sig .tc .vmem S1x2048 .f32) (h4 : a4.IsWhole)
    (a5 : Memref sig .tc .vmem S8x128 .f32) (h5 : a5.IsWhole) (a6 : Memref sig .tc .vmem S1x1 .f32) (h6 : a6.IsWhole)
    (hc0 : cond0_0 i) (hc1 : ¬cond0_1 i) (x0 x1 : Vec F S512x2048 .f32) (x2 : Vec F S1x2048 .f32) :
    sout0_A_0 c i a2 h2 a3 h3 a4 h4 a5 h5 a6 h6 hc0 hc1 x0 x1 x2 = k0_pay2 x0 x1 x2 k0_pay1 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread,
    View.ld_unit_zero (S := S512x2048) hz, View.ld_unit_zero (S := S1x2048) hz, View.ld_unit_zero (S := S1x1) hz]

/-- A group's last point writes, into the result block, the corner-select of the accumulator it has just updated. -/
theorem out_C (c : Dev nD) (i : grid0.Coords) (a2 : Memref sig .tc .vmem S512x2048 .f32) (h2 : a2.IsWhole)
    (a3 : Memref sig .tc .vmem S512x2048 .f32) (h3 : a3.IsWhole) (a4 : Memref sig .tc .vmem S1x2048 .f32) (h4 : a4.IsWhole)
    (a5 : Memref sig .tc .vmem S8x128 .f32) (h5 : a5.IsWhole) (a6 : Memref sig .tc .vmem S1x1 .f32) (h6 : a6.IsWhole)
    (hc0 : ¬cond0_0 i) (hc1 : cond0_1 i) (x0 x1 : Vec F S512x2048 .f32) (x2 : Vec F S1x2048 .f32) (xs0 : Vec F S1x1 .f32) :
    out0_C_3 c i a2 h2 a3 h3 a4 h4 a5 h5 a6 h6 hc0 hc1 x0 x1 x2 xs0 = k0_pay3 (k0_pay2 x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz, View.readCov_unit_zero (S := S1x1) _ hz]
  simp only [View.readAt_eq_ld, h2.read_unread, h3.read_unread, h4.read_unread, h6.read_unread,
    View.ld_unit_zero (S := S512x2048) hz, View.ld_unit_zero (S := S1x2048) hz, View.ld_unit_zero (S := S1x1) hz]

/-- A group's last point leaves in the accumulator the update of what it found there. -/
theorem sout_C (c : Dev nD) (i : grid0.Coords) (a2 : Memref sig .tc .vmem S512x2048 .f32) (h2 : a2.IsWhole)
    (a3 : Memref sig .tc .vmem S512x2048 .f32) (h3 : a3.IsWhole) (a4 : Memref sig .tc .vmem S1x2048 .f32) (h4 : a4.IsWhole)
    (a5 : Memref sig .tc .vmem S8x128 .f32) (h5 : a5.IsWhole) (a6 : Memref sig .tc .vmem S1x1 .f32) (h6 : a6.IsWhole)
    (hc0 : ¬cond0_0 i) (hc1 : cond0_1 i) (x0 x1 : Vec F S512x2048 .f32) (x2 : Vec F S1x2048 .f32) (xs0 : Vec F S1x1 .f32) :
    sout0_C_0 c i a2 h2 a3 h3 a4 h4 a5 h5 a6 h6 hc0 hc1 x0 x1 x2 xs0 = k0_pay2 x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread,
    View.ld_unit_zero (S := S512x2048) hz, View.ld_unit_zero (S := S1x2048) hz, View.ld_unit_zero (S := S1x1) hz]

end Cert.KernelIdeal.Pieces

end
-- ==== Proof.Payload.lean ====
/-
  The body's arithmetic read on the extended reals. The accumulator's update adds to the accumulator the sum, over
  the 512 rows of the point's blocks, of the row's quotient: the "is a number" mask is all ones (nothing differs from itself), so the
  select keeps the residual t − o, the mask as a float is one and its row sum is the sum of 2048 ones; the weights' one row is
  broadcast over the rows; the two lane sums run over the 2048 features and are kept as columns; the quotient is taken
  per row; and the last sum runs over the rows. The zeroing store is zero, and the result block is the accumulator where both
  coordinates are zero and zero elsewhere.
-/
import proofs.«118685_j47339129536786_2_alg».proof.Proof.Gen.KernelIdeal.Skeleton
import proofs.«118685_j47339129536786_2_alg».proof.Proof.Spec
import proofs.«118685_j47339129536786_2_alg».proof.Proof.LibIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Spec Cert.LibIdx
open scoped BigOperators

/-- Nothing differs from itself, so the negated comparison is one everywhere. -/
theorem mask_eq (x1 : FVec Ideal S512x2048 .f32) :
    xori (cmpf .one x1 x1) (constantI S512x2048 1 1#1) = fun _ => 1#1 := by
  funext i
  show IntOp.xori (FloatOps.cmpf .one (x1 i) (x1 i)) 1#1 = 1#1
  rw [Ideal.cmpf_def]
  simp [Ideal.cmp, IntOp.xori]

/-- The all-ones mask widened to 32 bits and converted to a float is one everywhere. -/
theorem maskf_eq :
    (sitofp .f32 (extui 32 (fun _ : S512x2048.Idx => (1#1 : BitVec 1)) natLt_1_32) : FVec Ideal S512x2048 .f32) = fun _ => (1 : EReal) := by
  funext i
  show ((((1#1 : BitVec 1).setWidth 32).toInt : ℝ) : EReal) = 1
  have e : ((1#1 : BitVec 1).setWidth 32).toInt = 1 := by decide
  rw [e]
  simp

/-- A select on the all-ones mask keeps its first operand. -/
theorem select_ones {s : Shape} {α : Type} (a b : s.Idx → α) : select (fun _ : s.Idx => (1#1 : BitVec 1)) a b = a :=
  funext fun i => select_one (a i) (b i)

/-- The sum along the features of a [512, 2048] block, at row r. -/
theorem laneSum_apply (src : FVec Ideal S512x2048 .f32) (h : S512x2048.Reduces [1] S512) (hφ : FKind.Formats .f32)
    (hacc : (0x00000000#32 : BitVec 32) = FKind.add.neutral .f32 hφ) (r : Fin 512) :
    multiReduction .add [1] S512 src 0x00000000#32 h hφ hacc (ix1 r) = ∑ k : Fin 2048, src (ix2 r k) :=
  (Ideal.multiReduction_add_single src _ h hφ hacc (ix1 r)).trans
    (Finset.sum_congr rfl fun k _ => congrArg src (funext fun a => Fin.ext (by match a with | ⟨0, _⟩ => rfl | ⟨1, _⟩ => rfl)))

/-- The sum along the rows of a [512, 1] column. -/
theorem rowsSum_apply (src : FVec Ideal S512x1 .f32) (h : S512x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ k : Fin 512, src (ix2 k (0 : Fin 1)) :=
  (Ideal.multiReduction_add_single src _ h hφ hacc (ix1 0)).trans
    (Finset.sum_congr rfl fun k _ => congrArg src (funext fun a => Fin.ext (by match a with | ⟨0, _⟩ => rfl | ⟨1, _⟩ => rfl)))

/-- The accumulator's update: what it held plus the blocks' sum of row quotients. -/
theorem pay2_eq (x0 x1 : FVec Ideal S512x2048 .f32) (x2 : FVec Ideal S1x2048 .f32) (a : EReal) :
    k0_pay2 (F := Ideal) x0 x1 x2 (fun _ => a) = fun _ => a + blockSum x0 x1 x2 := by
  funext y
  obtain rfl := idx11_eq y
  unfold k0_pay2
  dsimp only
  simp only [shapeCast_self, mask_eq, maskf_eq, select_ones]
  rw [addf_apply]
  refine congrArg (a + ·) ?_
  refine (shapeCast_a_1a_apply _ _ (0 : Fin 1) (0 : Fin 1)).trans ?_
  refine (rowsSum_apply _ _ _ _).trans ?_
  unfold blockSum
  refine Finset.sum_congr rfl fun r _ => ?_
  rw [divf_apply]
  refine congrArg₂ Ideal.div ?_ ?_
  · refine (shapeCast_a_a1_apply _ _ r (0 : Fin 1)).trans ?_
    refine (laneSum_apply _ _ _ _ r).trans ?_
    refine Finset.sum_congr rfl fun j _ => ?_
    rw [mulf_apply, mulf_apply, subf_apply, broadcastTo_1b_ab_apply]
  · refine (shapeCast_a_a1_apply _ _ r (0 : Fin 1)).trans ?_
    exact laneSum_apply _ _ _ _ r

/-- The reset stores zero. -/
theorem pay1_eq : k0_pay1 (F := Ideal) = fun _ => (0 : EReal) := by
  unfold k0_pay1
  dsimp only
  rw [shapeCast_self]
  funext y
  exact Ideal.ofBits_zero_f32

/-- A coordinate below 2^32 compared with zero as a 32-bit word. -/
theorem cmpi_eq_zero (n : ℕ) (hn : n < 2 ^ 32) :
    IntOp.cmpi .eq (BitVec.ofNat 32 n) 0#32 = if n = 0 then 1#1 else 0#1 := by
  by_cases h : n = 0
  · subst h; rw [if_pos rfl]; rfl
  · rw [if_neg h]
    have hne : BitVec.ofNat 32 n ≠ 0#32 := fun e => h (by
      have := congrArg BitVec.toNat e
      rw [BitVec.toNat_ofNat, Nat.mod_eq_of_lt hn] at this
      exact this)
    show BitVec.ofBool (BitVec.ofNat 32 n == 0#32) = 0#1
    rw [beq_eq_false_iff_ne.mpr hne]
    rfl

/-- The last point's block: the accumulator at the block's corner, zero elsewhere. -/
theorem pay3_apply (a : EReal) (p : Fin 8) (q : Fin 128) :
    k0_pay3 (F := Ideal) (fun _ => a) (ix2 p q) = if p.val = 0 ∧ q.val = 0 then a else 0 := by
  unfold k0_pay3
  dsimp only
  show Scalar.select (IntOp.andi (IntOp.cmpi .eq (iota .tc S8x128 32 [0] _ (ix2 p q)) 0#32)
      (IntOp.cmpi .eq (iota .tc S8x128 32 [1] _ (ix2 p q)) 0#32)) a (Ideal.ofBits .f32 0x00000000#32) = _
  rw [iota_single_apply, iota_single_apply]
  show Scalar.select (IntOp.andi (IntOp.cmpi .eq (BitVec.ofNat 32 p.val) 0#32)
      (IntOp.cmpi .eq (BitVec.ofNat 32 q.val) 0#32)) a (Ideal.ofBits .f32 0x00000000#32) = _
  rw [cmpi_eq_zero _ (Nat.lt_of_lt_of_le p.isLt (by norm_num)), cmpi_eq_zero _ (Nat.lt_of_lt_of_le q.isLt (by norm_num)),
    Ideal.ofBits_zero_f32]
  by_cases hp : p.val = 0 <;> by_cases hq : q.val = 0 <;> simp [hp, hq, IntOp.andi, Scalar.select]

end Cert.KernelIdeal.Payload

end
-- ==== Proof.Blocks.lean ====
/-
  What a grid point is handed: at point t the two big windows hold rows 512 t … 512 t + 511 of the two arguments, and
  the third window holds the weights as one row (the host reshapes the weights to [1, 2048] before the call).
-/
import proofs.«118685_j47339129536786_2_alg».proof.Proof.Gen.KernelIdeal.Frame
import proofs.«118685_j47339129536786_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ)

/-- The printed index maps over the grid: the two big windows are at block row t, the weights at block (0, 0), the
    result at block row t / 16. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val / 16 ∧ win0_3.index t (1 : Fin 2) = 0 :=
  (by decide +kernel : ∀ t : Fin grid0.N, _)

/-- Row r of the first window's block at point t is row 512 t + r of the first argument. -/
theorem iblk0_apply (c : Dev nD) (t : Fin cfg0.N) (r : Fin 512) (j : Fin 2048) (R : Fin 16384) (hR : R.val = 512 * t.val + r.val) :
    (iblk m c 0 t : Vec Ideal S512x2048 .f32) (ix2 r j) = m ((c : Thread nD τ).loc main_arg0) (ix2 R j) := by
  obtain ⟨e0, e1, -⟩ := idx_facts t
  unfold iblk
  rw [View.read_apply]
  show V m c main_arg0 (((cfg0.win 0).blk t).view.emb (ix2 r j)) = _
  rw [V_main_arg0]
  refine congrArg _ (funext fun a => Fin.ext ?_)
  match a with
  | ⟨0, _⟩ => show win0_0.index t (0 : Fin 2) * 512 + 1 * r.val = R.val; omega
  | ⟨1, _⟩ => show win0_0.index t (1 : Fin 2) * 2048 + 1 * j.val = j.val; omega

/-- The same for the second window and the second argument. -/
theorem iblk1_apply (c : Dev nD) (t : Fin cfg0.N) (r : Fin 512) (j : Fin 2048) (R : Fin 16384) (hR : R.val = 512 * t.val + r.val) :
    (iblk m c 1 t : Vec Ideal S512x2048 .f32) (ix2 r j) = m ((c : Thread nD τ).loc main_arg1) (ix2 R j) := by
  obtain ⟨-, -, e0, e1, -⟩ := idx_facts t
  unfold iblk
  rw [View.read_apply]
  show V m c main_arg1 (((cfg0.win 1).blk t).view.emb (ix2 r j)) = _
  rw [V_main_arg1]
  refine congrArg _ (funext fun a => Fin.ext ?_)
  match a with
  | ⟨0, _⟩ => show win0_1.index t (0 : Fin 2) * 512 + 1 * r.val = R.val; omega
  | ⟨1, _⟩ => show win0_1.index t (1 : Fin 2) * 2048 + 1 * j.val = j.val; omega

/-- The third window's array is the weights viewed as one row. -/
theorem V_main_v0 (c : Dev nD) :
    (V m c main_v0 : S1x2048.Idx → EReal) = shapeCast S1x2048 (m ((c : Thread nD τ).loc main_arg2)) shapeCasts_S2048_S1x2048 := by
  show StableHlo.after hostOps0 (fun b => m (c, b)) (Proc.devRef .tc main_v0) = _
  after_results
  rfl

/-- So its block, at any point, reads the weights. -/
theorem iblk2_apply (c : Dev nD) (t : Fin cfg0.N) (j : Fin 2048) :
    (iblk m c 2 t : Vec Ideal S1x2048 .f32) (ix2 (0 : Fin 1) j) = m ((c : Thread nD τ).loc main_arg2) (ix1 j) := by
  obtain ⟨-, -, -, -, e0, e1, -⟩ := idx_facts t
  unfold iblk
  rw [View.read_apply]
  show V m c main_v0 (((cfg0.win 2).blk t).view.emb (ix2 (0 : Fin 1) j)) = _
  have e : ((cfg0.win 2).blk t).view.emb (ix2 (0 : Fin 1) j) = ix2 (0 : Fin 1) j := funext fun a => Fin.ext (by
    match a with
    | ⟨0, _⟩ => show win0_2.index t (0 : Fin 2) * 1 + 1 * 0 = 0; omega
    | ⟨1, _⟩ => show win0_2.index t (1 : Fin 2) * 2048 + 1 * j.val = j.val; omega)
  rw [e, V_main_v0, shapeCast_a_1a_apply]

end Cert.KernelIdeal.Blocks

end
-- ==== Proof.Chain.lean ====
/-
  Point by point. After grid point n the accumulator a core carries holds the running sum of the tiles' sums since the
  start of the current group of sixteen points (the first point of a group resets it to zero and then adds its tile; every
  other point adds its tile to what the point before left), and at the last point of a group the result block is written:
  that running sum at the block's corner, zero elsewhere. By induction on the point over the cases the body's
  conditionals distinguish, each case read through its found pieces as a payload and the payload read on the extended reals.
-/
import proofs.«118685_j47339129536786_2_alg».proof.Proof.Pieces
import proofs.«118685_j47339129536786_2_alg».proof.Proof.Payload
import proofs.«118685_j47339129536786_2_alg».proof.Proof.Blocks

noncomputable section

namespace Cert.KernelIdeal.Chain

open Idealize.ShloMosaic Idealize.ShloMosaic.TcCoe Idealize.SL.Sem Idealize.ShloMosaic.ValueIdx
open Cert.KernelIdeal Cert.KernelIdeal.Gen Cert.Spec
open Cert.KernelIdeal.Pieces Cert.KernelIdeal.Payload Cert.KernelIdeal.Blocks

variable (m : (ℓ : Loc nD τ sig) → Buf (Elt Ideal) ℓ)

/-- Tile n's sum of row quotients, of the three arguments as core c is launched with them. -/
def tiles (c : Dev nD) : ℕ → EReal :=
  tileN (m ((c : Thread nD τ).loc main_arg0)) (m ((c : Thread nD τ).loc main_arg1)) (m ((c : Thread nD τ).loc main_arg2))

/-- The blocks point t is handed are tile t's rows, so the block-level expression is tile t's sum. -/
theorem block_eq_tile (c : Dev nD) (t : Fin cfg0.N) :
    blockSum (iblk m c 0 t) (iblk m c 1 t) (iblk m c 2 t) = tiles m c t.val := by
  have hN : t.val < 32 := lt_of_lt_of_eq t.isLt N_0
  unfold tiles
  rw [tileN_of_lt _ _ _ _ hN]
  exact blockSum_eq_tile _ _ _ ⟨t.val, hN⟩ (iblk m c 0 t) (iblk m c 1 t) (iblk m c 2 t)
    (fun r j => iblk0_apply m c t r j _ rfl) (fun r j => iblk1_apply m c t r j _ rfl) (fun j => iblk2_apply m c t j)

/-- One point's update of the accumulator: what it held plus the point's tile. -/
theorem step_eq (c : Dev nD) (t : Fin cfg0.N) (a : EReal) :
    k0_pay2 (F := Ideal) (iblk m c 0 t) (iblk m c 1 t) (iblk m c 2 t) (fun _ => a) = fun _ => a + tiles m c t.val := by
  rw [pay2_eq (iblk m c 0 t) (iblk m c 1 t) (iblk m c 2 t) a, block_eq_tile]

/-- The accumulator after point n is the running sum. -/
theorem acc_eq (c : Dev nD) : ∀ (n : ℕ) (h : n < cfg0.N), (outsAt0 m c n h).2 = fun _ => runSum (tiles m c) n
  | 0, h => by
    have e := outsAt0_A m c ⟨0, h⟩ rfl (by show ¬(0 : ℕ) % 16 = 15; decide)
    rw [show outsAt0 m c 0 h = _ from e]
    dsimp only
    rw [sout_A, pay1_eq, step_eq m c ⟨0, h⟩ 0, runSum_first _ _ rfl, zero_add]
  | n + 1, h => by
    have ih := acc_eq c n (Nat.lt_of_succ_lt h)
    by_cases h0 : (n + 1) % 16 = 0
    · have h1 : ¬(n + 1) % 16 = 15 := by omega
      have e := outsAt0_A m c ⟨n + 1, h⟩ h0 h1
      rw [show outsAt0 m c (n + 1) h = _ from e]
      dsimp only
      rw [sout_A, pay1_eq, step_eq m c ⟨n + 1, h⟩ 0, runSum_first _ _ h0, zero_add]
    · by_cases h1 : (n + 1) % 16 = 15
      · have e := outsAt0_C m c ⟨n + 1, h⟩ h0 h1
        rw [show outsAt0 m c (n + 1) h = _ from e]
        dsimp only
        rw [sout_C]
        show k0_pay2 _ _ _ (outsAt0 m c n _).2 = _
        rw [ih, step_eq m c ⟨n + 1, h⟩ _, runSum_step _ _ h0]
      · have e := outsAt0_B m c ⟨n + 1, h⟩ h0 h1
        rw [show outsAt0 m c (n + 1) h = _ from e]
        dsimp only
        rw [sout_B]
        show k0_pay2 _ _ _ (outsAt0 m c n _).2 = _
        rw [ih, step_eq m c ⟨n + 1, h⟩ _, runSum_step _ _ h0]

/-- The block written at the last point of a group: the running sum at the corner, zero elsewhere. -/
theorem out_eq (c : Dev nD) (t : Fin cfg0.N) (h1 : t.val % 16 = 15) :
    (outsAt0 m c t.val t.isLt).1 = k0_pay3 (F := Ideal) (fun _ => runSum (tiles m c) t.val) := by
  obtain ⟨n, h⟩ := t
  cases n with
  | zero => exact absurd h1 (by show ¬(0 : ℕ) % 16 = 15; decide)
  | succ n =>
    have h0 : ¬(n + 1) % 16 = 0 := by dsimp only at h1; omega
    have e := outsAt0_C m c ⟨n + 1, h⟩ h0 h1
    rw [show outsAt0 m c (n + 1) h = _ from e]
    dsimp only
    rw [out_C]
    show k0_pay3 (k0_pay2 _ _ _ (outsAt0 m c n _).2) = _
    rw [acc_eq m c n _, step_eq m c ⟨n + 1, h⟩ _, runSum_step _ _ h0]

end Cert.KernelIdeal.Chain

end
-- ==== Proof.Final.lean ====
/-
  From blocks to the result. The result window is written back at the last point of each group of sixteen: point 15
  writes rows 0–7 of the [16, 128] result array and point 31 rows 8–15, each the core's last running sum at the block's
  corner and zero elsewhere; the two blocks cover the array, so it ends as `Cert.Spec.outArr` of the two running sums.
  The host then sums the whole array from zero: the two running sums, which together are the sum over all 32 tiles — the loss.
-/
import proofs.«118685_j47339129536786_2_alg».proof.Proof.Chain
import Idealize.ShloMosaic.PureOps.Ideal.Laws

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.Spec
open Cert.KernelIdeal.Payload Cert.KernelIdeal.Blocks Cert.KernelIdeal.Chain

variable (m : (ℓ : Loc nD τ sig) → Buf (Elt Ideal) ℓ) (ρ : Dev nD → PrngReg)

/-- The result array after the region: core 0's last running sum at (0, 0), core 1's at (8, 0), zero elsewhere. -/
def resArr (c : Dev nD) : S16x128.Idx → EReal := outArr (runSum (tiles m c) 15) (runSum (tiles m c) 31)

/-- What a flushing point writes back is its block of that array. -/
theorem flushed_eq (c : Dev nD) (t : Fin cfg0.N) (hf : (cfg0.win 3).flush t = true) :
    (dats m 0 c).flushed 3 t = ((cfg0.win 3).blk t).view.read (Elt Ideal) (resArr m c) := by
  have h15 : t.val % 16 = 15 := (flush0_3 t).mp hf
  have hN : t.val < 32 := lt_of_lt_of_eq t.isLt N_0
  obtain ⟨-, -, -, -, -, -, e0, e1⟩ := idx_facts t
  show (cfg0.win 3).cut (grid0.coords t) ((dats m 0 c).after 3 t) = _
  rw [after0_3, out_eq m c t h15]
  funext y
  obtain ⟨p, q, rfl⟩ : ∃ (p : Fin 8) (q : Fin 128), y = ix2 p q := ⟨y 0, y 1, eq_ix2 y⟩
  show k0_pay3 (F := Ideal) (fun _ => runSum (tiles m c) t.val) (ix2 p q) = resArr m c (((cfg0.win 3).blk t).view.emb (ix2 p q))
  rw [pay3_apply]
  have hp : p.val < 8 := p.isLt
  have hemb : ((cfg0.win 3).blk t).view.emb (ix2 p q) = ix2 (⟨8 * (t.val / 16) + p.val, by omega⟩ : Fin 16) q :=
    funext fun a => Fin.ext (by
      match a with
      | ⟨0, _⟩ => show win0_3.index t (0 : Fin 2) * 8 + 1 * p.val = 8 * (t.val / 16) + p.val; omega
      | ⟨1, _⟩ => show win0_3.index t (1 : Fin 2) * 128 + 1 * q.val = q.val; omega)
  rw [hemb]
  unfold resArr
  have ht : t.val = 15 ∨ t.val = 31 := by omega
  rcases ht with ht | ht
  · rw [outArr_block0 _ _ p q _ (by show 8 * (t.val / 16) + p.val = p.val; omega), ht]
  · rw [outArr_block1 _ _ p q _ (by show 8 * (t.val / 16) + p.val = 8 + p.val; omega), ht]

/-- An index of the result array is in point t's block iff each coordinate is in the block's range on its axis. -/
theorem mem_blk (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v1).slice (win0_3.rect t)).set ↔ _
  rw [View.set_slice_whole, Rect.mem_set_unit]
  exact Iff.rfl

/-- The two flushed blocks cover the array: row i0 is in the block of the last point of group i0 / 8. -/
theorem cover (c : Dev nD) (i : S16x128.Idx) :
    ∃ t : Fin cfg0.N, (cfg0.win 3).flush t = true ∧ i ∈ ((cfg0.win 3).blk t).view.set := by
  have hi0 : (i 0).val < 16 := (i 0).isLt
  have hi1 : (i 1).val < 128 := (i 1).isLt
  have hN : cfg0.N = 32 := N_0
  let t : Fin cfg0.N := ⟨16 * ((i 0).val / 8) + 15, by omega⟩
  have htv : t.val = 16 * ((i 0).val / 8) + 15 := rfl
  refine ⟨t, (flush0_3 t).mpr (by omega), ?_⟩
  rw [mem_blk]
  obtain ⟨-, -, -, -, -, -, e0, e1⟩ := idx_facts t
  intro a
  match a with
  | ⟨0, _⟩ =>
    show win0_3.index t (0 : Fin 2) * 8 ≤ (i 0).val ∧ (i 0).val < win0_3.index t (0 : Fin 2) * 8 + 8
    omega
  | ⟨1, _⟩ =>
    show win0_3.index t (1 : Fin 2) * 128 ≤ (i 1).val ∧ (i 1).val < win0_3.index t (1 : Fin 2) * 128 + 128
    omega

/-- So the result array ends as `resArr`. -/
theorem final (c : Dev nD) : (dats m 0 c).arrAt 3 cfg0.N = resArr m c :=
  (dats m 0 c).arrAt_eq_of_cover 3 (resArr m c) (fun t hf => flushed_eq m c t hf) (cover c)

/-- The loss, of the three arguments as core c is launched with them. -/
abbrev loss (c : Dev nD) : EReal :=
  total (m ((c : Thread nD τ).loc main_arg0)) (m ((c : Thread nD τ).loc main_arg1)) (m ((c : Thread nD τ).loc main_arg2))

/-- The host's sum of the whole result array, from zero, is the loss. -/
theorem sum_resArr (c : Dev nD) :
    Host.reduceAdd (F := Ideal) (resArr m c) (constant (F := Ideal) S_ .f32 0x00000000#32) reducesTo_S16x128_S_d0_1 h_S_
      = fun _ => loss m c := by
  funext i
  simp only [Host.reduceAdd, Ideal.hostReduceAdd_def]
  refine (Ideal.hostReduceAdd_total reducesTo_S16x128_S_d0_1 (fun b => b.elim0) (resArr m c) _ i).trans ?_
  show Ideal.ofBits .f32 0x00000000#32 + ∑ y : Out.Idx, resArr m c y = _
  rw [Ideal.ofBits_zero_f32, zero_add]
  unfold resArr
  rw [sum_outArr]
  exact runSum_tiles_eq_total _ _ _

/-- The program's result buffer after the host operations that follow the region. -/
theorem tail_eq (c : Dev nD) :
    Pipeline.afterTail₀ cfgs (dats m) 0 (V0 m) [hostOps1] c main_v2 = fun _ => loss m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = resArr m c := (Pipeline.withArrays_arr spec0 launch0.win.arr_inj c _ _ 3).trans (final m c)
  rw [e]
  exact sum_resArr m c

/-- The run, read: the result buffer ends at the loss of the arguments, which end unchanged. -/
theorem run : θ_run defs (onTc (τ := τ) (main (F := Ideal))) ⟨m, fun _ => 0, ρ⟩ fun r => ∀ c : Dev nD,
      r.2.mem ((c.tc : Thread nD τ).loc main_v2) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.lean ====
/-
  A masked, feature-weighted mean-square loss: for outputs o and targets t of shape [16384, 2048] and weights w of
  shape [2048], the sum over the rows r of ( Σ_j ((t[r,j] − o[r,j]) · w[j])² ) / ( Σ_j 1 ), as one extended real.

  Both programs mask out the targets that "are not a number" by comparing each target with itself for inequality. On the
  extended reals nothing differs from itself, so both masks are all ones: the kernel's select keeps t − o, the
  reference's select keeps t and its product with the mask as a float is a product with one, and both counts are the sum of
  2048 ones. The reference divides the two per-row sums and sums the quotients over the rows. The kernel walks the rows in 32
  tiles of 512: each of two cores accumulates its sixteen tiles' sums of row quotients in a scratch cell (zeroed at the
  core's first tile) and, at its last tile, writes the cell into the corner of its own [8, 128] block of a [16, 128] array that is
  zero elsewhere; the host sums that array. The two sides differ only in how one sum is grouped and in added zeros, and
  the extended reals' addition is commutative and associative, so they agree for all inputs (finiteness is not used).

  The frames of the two kernel programs and the run and the read-at-an-index lemmas of the reference are generated modules;
  the kernel's value is read off its frame run here: the cases' found pieces as payloads, the payloads on the
  extended reals, the accumulator by induction over the grid points, the result array from its two flushed blocks, and
  the host's final sum.
-/
import proofs.«118685_j47339129536786_2_alg».proof.Defs
import proofs.«118685_j47339129536786_2_alg».proof.Proof.Gen.Kernel
import proofs.«118685_j47339129536786_2_alg».proof.Proof.Gen.Kernel.Skeleton
import proofs.«118685_j47339129536786_2_alg».proof.Proof.Gen.Kernel.Launch
import proofs.«118685_j47339129536786_2_alg».proof.Proof.Gen.Kernel.Points
import proofs.«118685_j47339129536786_2_alg».proof.Proof.Gen.Kernel.Frame
import proofs.«118685_j47339129536786_2_alg».proof.Proof.Gen.KernelIdeal
import proofs.«118685_j47339129536786_2_alg».proof.Proof.Gen.KernelIdeal.Skeleton
import proofs.«118685_j47339129536786_2_alg».proof.Proof.Gen.KernelIdeal.Launch
import proofs.«118685_j47339129536786_2_alg».proof.Proof.Gen.KernelIdeal.Points
import proofs.«118685_j47339129536786_2_alg».proof.Proof.Gen.KernelIdeal.Frame
import proofs.«118685_j47339129536786_2_alg».proof.Proof.Gen.ReferenceIdeal
import proofs.«118685_j47339129536786_2_alg».proof.Proof.Gen.ReferenceIdeal.Run
import proofs.«118685_j47339129536786_2_alg».proof.Proof.Gen.ReferenceIdeal.Read
import proofs.«118685_j47339129536786_2_alg».proof.Proof.Spec
import proofs.«118685_j47339129536786_2_alg».proof.Proof.RefValue
import proofs.«118685_j47339129536786_2_alg».proof.Proof.Final
import proofs.«118685_j47339129536786_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On the extended reals the kernel's result ends at the loss of its arguments, and the reference's at the loss of
    arguments that agree with them. -/
theorem algebraic : Cert.algebraic_KernelIdeal_ReferenceIdeal := by
  intro m ρ m' ρ' _ hagree
  refine ⟨fun c _ => Cert.KernelIdeal.Final.loss m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2.1,
    (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
